-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S768x768 : Shape := ⟨2, ![768, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S4x8192x768 .f32) (main_arg1 : FVec F S768x768 .f32) (main_arg2 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S4x8192x768 : Shape := ⟨3, ![4, 8192, 768]⟩
abbrev S768x768 : Shape := ⟨2, ![768, 768]⟩
abbrev S768 : Shape := ⟨1, ![768]⟩
abbrev S32768x768 : Shape := ⟨2, ![32768, 768]⟩
abbrev S1x768 : Shape := ⟨2, ![1, 768]⟩
abbrev S1024x768 : Shape := ⟨2, ![1024, 768]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S32768x768, .f32⟩
  | .hbm, ⟨4, _⟩ => ⟨S768x768, .f32⟩
  | .hbm, ⟨5, _⟩ => ⟨S1x768, .f32⟩
  | .hbm, ⟨6, _⟩ => ⟨S32768x768, .f32⟩
  | .hbm, ⟨7, _⟩ => ⟨S4x8192x768, .f32⟩
  | .local _ .vmem, ⟨0, _⟩ => ⟨S1024x768, .f32⟩
  | .local _ .vmem, ⟨1, _⟩ => ⟨S1024x768, .f32⟩
  | .local _ .vmem, ⟨2, _⟩ => ⟨S768x768, .f32⟩
  | .local _ .vmem, ⟨3, _⟩ => ⟨S1x768, .f32⟩
  | .local _ .vmem, ⟨4, _⟩ => ⟨S1024x768, .f32⟩
  | .local _ .vmem, ⟨5, _⟩ => ⟨S1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x768_S32768x768 : S4x8192x768.ShapeCasts S32768x768
  transposes_S768x768_S768x768_1_0 : S768x768.Transposes [1, 0] S768x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S32768x768_S4x8192x768 : S32768x768.ShapeCasts S4x8192x768
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S32768x768.size a
  hwx0_3 : ∀ i : grid0.Coords, EltTy.bits .f32 = 32 ∨ (Rect.block (s := S32768x768) S1024x768.size (cc0_transform_3 i) (hinb0_3 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S768x768 : Shape := ⟨2, ![768, 768]⟩
abbrev S768 : Shape := ⟨1, ![768]⟩
abbrev S1x1x768 : Shape := ⟨3, ![1, 1, 768]⟩

abbrev nBuf : Space → Nat
  | .hbm => 7
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S4x8192x768, .f32⟩
  | .hbm, ⟨4, _⟩ => ⟨S1x1x768, .f32⟩
  | .hbm, ⟨5, _⟩ => ⟨S4x8192x768, .f32⟩
  | .hbm, ⟨6, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  dot_S4x8192x768_S768x768_S4x8192x768_2_1_01_0_n_n_wf : DotDims.WF S4x8192x768 S768x768 S4x8192x768 [2] [1] [0, 1] [0] [] []

variable [Facts₀]

def dot_S4x8192x768_S768x768_S4x8192x768_2_1_01_0_n_n : DotDims S4x8192x768 S768x768 S4x8192x768 where
  lhsContracting := [2]
  rhsContracting := [1]
  lhsNonContracting := [0, 1]
  rhsNonContracting := [0]
  lhsBatch := []
  rhsBatch := []
  wf := dot_S4x8192x768_S768x768_S4x8192x768_2_1_01_0_n_n_wf

class Facts : Prop extends Facts₀ where

variable [Facts]
-- ==== Proof.Spec.lean ====
/-
  The dense layer both programs compute, as functions of the argument arrays over the extended reals.

  `linear src W b` is the layer itself: at token (p, s) and output feature e it is the inner product of the
  token's 768 features with row e of the weight matrix, plus the bias at e:
      out[p, s, e] = (∑ k, src[p, s, k] · W[e, k]) + b[e].
  `rowsOut x wT b2` is the same layer on the operands as the tiled matrix product sees them — the 4 × 8192
  tokens laid out as 32768 rows, the weights transposed, the bias as a one-row matrix:
      rows[r, e] = (∑ k, x[r, k] · wT[k, e]) + b2[0, e].
  The two agree once x is src with its two leading axes merged, wT the transpose of W and b2 the bias with a
  unit axis in front; the sum runs over the same 768 terms in the same order on both sides, so no law of the
  extended reals beyond rewriting the operands is needed, and no finiteness.
-/
import Idealize.ShloMosaic.PureOps.Ideal
import Idealize.ShloMosaic.Lib.ValueIdx

noncomputable section

namespace Cert.DenseLayer

open Idealize.ShloMosaic Idealize.ShloMosaic.ValueIdx

/-- The layer on the original arrays: tokens [4, 8192, 768], weights [768 (out), 768 (in)], bias [768]. -/
def linear (src : (⟨3, ![4, 8192, 768]⟩ : Shape).Idx → EReal) (W : (⟨2, ![768, 768]⟩ : Shape).Idx → EReal)
    (b : (⟨1, ![768]⟩ : Shape).Idx → EReal) : (⟨3, ![4, 8192, 768]⟩ : Shape).Idx → EReal :=
  fun i => (∑ k : Fin 768, src (ix3 (i 0) (i 1) k) * W (ix2 (i 2) k)) + b (ix1 (i 2))

/-- The layer on the matrix product's operands: rows [32768, 768], transposed weights [768 (in), 768 (out)],
    bias row [1, 768]. -/
def rowsOut (x : (⟨2, ![32768, 768]⟩ : Shape).Idx → EReal) (wT : (⟨2, ![768, 768]⟩ : Shape).Idx → EReal)
    (b2 : (⟨2, ![1, 768]⟩ : Shape).Idx → EReal) : (⟨2, ![32768, 768]⟩ : Shape).Idx → EReal :=
  fun j => (∑ k : Fin 768, x (ix2 (j 0) k) * wT (ix2 k (j 1))) + b2 (ix2 (0 : Fin 1) (j 1))

end Cert.DenseLayer

end
-- ==== Proof.Relayout.lean ====
/-
  The re-laid operands give the same layer.

  The kernel merges the two token axes (token (p, s) becomes row 8192·p + s), transposes the weight matrix, puts a
  unit axis in front of the bias, multiplies, and splits the row axis of the product again. Reading each of
  these at an index: row 8192·p + s, feature k of the merged matrix is src[p, s, k]; entry (k, e) of the
  transpose is W[e, k]; entry (0, e) of the bias row is b[e]; and entry (p, s, e) of the split product is
  entry (8192·p + s, e) of the product. So the re-laid product is `linear` of the original arrays, term by term.
-/
import proofs.«117701_g83073257439578_cont_9to1c4b_858_5_alg».proof.Proof.Spec
import Idealize.ShloMosaic.Lib.Pipeline.Value

noncomputable section

namespace Cert.DenseLayer

open Idealize.ShloMosaic Idealize.ShloMosaic.ValueIdx

/-- Row 8192·p + s of the merged token matrix at feature k is the token (p, s) at feature k. -/
theorem merged_rows_apply (src : (⟨3, ![4, 8192, 768]⟩ : Shape).Idx → EReal)
    (h : (⟨3, ![4, 8192, 768]⟩ : Shape).ShapeCasts ⟨2, ![32768, 768]⟩) (p : Fin 4) (s : Fin 8192) (k : Fin 768)
    (r : Fin 32768) (hr : r.val = p.val * 8192 + s.val) :
    shapeCast ⟨2, ![32768, 768]⟩ src h (ix2 r k) = src (ix3 p s k) :=
  shapeCast_apply src h (ix2 r k) (ix3 p s k) (by
    rw [Shape.rowMajor_val_three, Shape.rowMajor_val_two]
    show (p.val * 8192 + s.val) * 768 + k.val = r.val * 768 + k.val
    rw [hr])

/-- Entry (k, e) of the transposed weight matrix is W[e, k]. -/
theorem transposed_apply (W : (⟨2, ![768, 768]⟩ : Shape).Idx → EReal)
    (h : (⟨2, ![768, 768]⟩ : Shape).Transposes [1, 0] ⟨2, ![768, 768]⟩) (k e : Fin 768) :
    transpose ⟨2, ![768, 768]⟩ [1, 0] W h (ix2 k e) = W (ix2 e k) :=
  transpose_apply [1, 0] W h (ix2 k e) (ix2 e k) (fun b => by
    match b with
    | ⟨0, _⟩ => rfl
    | ⟨1, _⟩ => rfl)

/-- Entry (0, e) of the bias row is b[e]. -/
theorem bias_row_apply (b : (⟨1, ![768]⟩ : Shape).Idx → EReal)
    (h : (⟨1, ![768]⟩ : Shape).ShapeCasts ⟨2, ![1, 768]⟩) (e : Fin 768) :
    shapeCast ⟨2, ![1, 768]⟩ b h (ix2 (0 : Fin 1) e) = b (ix1 e) :=
  shapeCast_apply b h (ix2 (0 : Fin 1) e) (ix1 e) (by
    rw [Shape.rowMajor_val_one, Shape.rowMajor_val_two]
    show e.val = 0 * 768 + e.val
    omega)

/-- THE LAW: the product of the re-laid operands, with its row axis split back into the two token axes, is the
    layer on the original arrays. -/
theorem relaid_eq_linear (src : (⟨3, ![4, 8192, 768]⟩ : Shape).Idx → EReal) (W : (⟨2, ![768, 768]⟩ : Shape).Idx → EReal)
    (b : (⟨1, ![768]⟩ : Shape).Idx → EReal)
    (h1 : (⟨3, ![4, 8192, 768]⟩ : Shape).ShapeCasts ⟨2, ![32768, 768]⟩)
    (h2 : (⟨2, ![768, 768]⟩ : Shape).Transposes [1, 0] ⟨2, ![768, 768]⟩)
    (h3 : (⟨1, ![768]⟩ : Shape).ShapeCasts ⟨2, ![1, 768]⟩)
    (h4 : (⟨2, ![32768, 768]⟩ : Shape).ShapeCasts ⟨3, ![4, 8192, 768]⟩) :
    shapeCast ⟨3, ![4, 8192, 768]⟩
        (rowsOut (shapeCast ⟨2, ![32768, 768]⟩ src h1) (transpose ⟨2, ![768, 768]⟩ [1, 0] W h2) (shapeCast ⟨2, ![1, 768]⟩ b h3)) h4
      = linear src W b := by
  funext i
  have hp : (i 0).val < 4 := (i 0).isLt
  have hs : (i 1).val < 8192 := (i 1).isLt
  -- entry (p, s, e) of the split product is entry (8192·p + s, e) of the product
  have hsplit := shapeCast_apply
    (rowsOut (shapeCast ⟨2, ![32768, 768]⟩ src h1) (transpose ⟨2, ![768, 768]⟩ [1, 0] W h2) (shapeCast ⟨2, ![1, 768]⟩ b h3)) h4 i
    (ix2 (⟨(i 0).val * 8192 + (i 1).val, by omega⟩ : Fin 32768) (i 2)) (by
      rw [Shape.rowMajor_val_three, Shape.rowMajor_val_two]
      show ((i 0).val * 8192 + (i 1).val) * 768 + (i 2).val = ((i 0).val * 8192 + (i 1).val) * 768 + (i 2).val
      rfl)
  rw [hsplit]
  unfold rowsOut linear
  refine congrArg₂ (· + ·) (Finset.sum_congr rfl fun k _ => congrArg₂ (· * ·) ?_ ?_) ?_
  · exact merged_rows_apply src h1 (i 0) (i 1) k _ rfl
  · exact transposed_apply W h2 k (i 2)
  · exact bias_row_apply b h3 (i 2)

end Cert.DenseLayer

end
-- ==== Proof.BodyValue.lean ====
/-
  What the kernel body stores, read at an index.

  The body loads a 1024-row block of the token matrix, the whole transposed weight matrix and the bias row,
  multiplies the first two into a zero accumulator and adds the bias row to every row of the product. Over the
  extended reals the product into a zero accumulator is the plain sum over the 768 contracted features, the
  shape casts to the same shape are the identity, and the broadcast reads the bias row at the column. So at
  row p and column q of the block the stored value is (∑ k, x[p, k] · w[k, q]) + bias[0, q].
-/
import proofs.«117701_g83073257439578_cont_9to1c4b_858_5_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

/-! ## The matrix product's operand indices, coordinate by coordinate -/

/-- The left operand is read at the output's row … -/
theorem lhs_row (j : S1024x768.Idx) (q : dot_S1024x768_S768x768_S1024x768_1_0_0_1_n_n.contr.Idx) :
    (dot_S1024x768_S768x768_S1024x768_1_0_0_1_n_n.lhsIdx j q 0).val = (j 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
/-- … and at the contracted feature. -/
theorem lhs_feature (j : S1024x768.Idx) (q : dot_S1024x768_S768x768_S1024x768_1_0_0_1_n_n.contr.Idx) :
    (dot_S1024x768_S768x768_S1024x768_1_0_0_1_n_n.lhsIdx j q 1).val = (q ⟨0, by decide⟩).val :=
  dot_S1024x768_S768x768_S1024x768_1_0_0_1_n_n.lhsIdx_val_of_single rfl j q
/-- The right operand is read at the contracted feature … -/
theorem rhs_feature (j : S1024x768.Idx) (q : dot_S1024x768_S768x768_S1024x768_1_0_0_1_n_n.contr.Idx) :
    (dot_S1024x768_S768x768_S1024x768_1_0_0_1_n_n.rhsIdx j q 0).val = (q ⟨0, by decide⟩).val :=
  dot_S1024x768_S768x768_S1024x768_1_0_0_1_n_n.rhsIdx_val_of_single rfl j q
/-- … and at the output's column. -/
theorem rhs_col (j : S1024x768.Idx) (q : dot_S1024x768_S768x768_S1024x768_1_0_0_1_n_n.contr.Idx) :
    (dot_S1024x768_S768x768_S1024x768_1_0_0_1_n_n.rhsIdx j q 1).val = (j 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The block's matrix product into the zero accumulator, at row p and column q: the inner product of row p of the
    left operand with column q of the right. -/
theorem product_apply (x : FVec Ideal S1024x768 .f32) (w : FVec Ideal S768x768 .f32) (p : Fin 1024) (q : Fin 768) :
    matmul (F := Ideal) dot_S1024x768_S768x768_S1024x768_1_0_0_1_n_n none x w (constant (F := Ideal) S1024x768 .f32 0x00000000#32) (ix2 p q)
      = ∑ k : Fin 768, x (ix2 p k) * w (ix2 k q) := by
  simp only [matmul]
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 p q) ((contrEquiv1 dot_S1024x768_S768x768_S1024x768_1_0_0_1_n_n 768 rfl rfl).symm k) = ix2 p k := funext fun a => Fin.ext (by
    match a with
    | ⟨0, _⟩ => exact lhs_row _ _
    | ⟨1, _⟩ => exact (lhs_feature _ _).trans hk)
  have er : dot_S1024x768_S768x768_S1024x768_1_0_0_1_n_n.rhsIdx (ix2 p q) ((contrEquiv1 dot_S1024x768_S768x768_S1024x768_1_0_0_1_n_n 768 rfl rfl).symm k) = ix2 k q := funext fun a => Fin.ext (by
    match a with
    | ⟨0, _⟩ => exact (rhs_feature _ _).trans hk
    | ⟨1, _⟩ => exact rhs_col _ _)
  rw [el, er]

/-- The bias row broadcast down the block's rows, at row p and column q, is the bias at column q. -/
theorem bias_rows_apply (b2 : FVec Ideal S1x768 .f32) (h : S1x768.Broadcasts S1024x768) (p : Fin 1024) (q : Fin 768) :
    broadcastTo S1024x768 b2 h (ix2 p q) = b2 (ix2 (0 : Fin 1) q) :=
  broadcastTo_apply b2 h (ix2 p q) (ix2 (0 : Fin 1) q) (fun a => by
    match a with
    | ⟨0, _⟩ => show 0 = if (1 : Nat) = 1 then 0 else _; rw [if_pos rfl]
    | ⟨1, _⟩ => show q.val = if (768 : Nat) = 1 then 0 else q.val; rw [if_neg (by decide)])

/-- THE STORED VALUE at row p and column q of the block: the inner product plus the bias. -/
theorem stored_apply (x0 : Vec Ideal S1024x768 .f32) (x1 : Vec Ideal S768x768 .f32) (x2 : Vec Ideal S1x768 .f32)
    (p : Fin 1024) (q : Fin 768) :
    k0_pay1 (F := Ideal) x0 x1 x2 (ix2 p q) = (∑ k : Fin 768, x0 (ix2 p k) * x1 (ix2 k q)) + x2 (ix2 (0 : Fin 1) q) := by
  unfold k0_pay1
  simp only [shapeCast_self]
  rw [addf_apply, product_apply, bias_rows_apply]

end Cert.KernelIdeal.BodyValue

end
-- ==== Proof.RegionValue.lean ====
/-
  The matrix the tiled product leaves behind.

  The grid has 32 points; point t works on rows 1024·t … 1024·t + 1023 of the token matrix, with the whole
  transposed weight matrix and the bias row at every point, and writes rows 1024·t … of the output. Since
  the value the body stores at row p of its block depends only on row p of the token block, what point t writes
  back is exactly rows 1024·t … of ONE matrix, `rowsOut` of the three operand arrays; the 32 blocks tile the
  32768 rows, so after the region the output array is that matrix.
-/
import proofs.«117701_g83073257439578_cont_9to1c4b_858_5_alg».proof.Proof.Gen.KernelIdeal.Frame
import proofs.«117701_g83073257439578_cont_9to1c4b_858_5_alg».proof.Proof.Spec
import proofs.«117701_g83073257439578_cont_9to1c4b_858_5_alg».proof.Proof.BodyValue
import Idealize.ShloMosaic.Lib.Pipeline.Value

set_option maxRecDepth 16384

noncomputable section

namespace Cert.KernelIdeal.RegionValue

open Cert.KernelIdeal Cert.KernelIdeal.Gen Cert.DenseLayer Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The four windows' block indices over the grid: the token block and the output block are both block t of their
    row axis and block 0 of the feature axis; the weights and the bias are their one block at every point. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every one of the 32 row blocks is some point's output block. -/
theorem block_onto : ∀ q : Fin 32, ∃ t : Fin cfg0.N, win0_3.index t = ![q.val, 0] :=
  (by decide +kernel : ∀ q : Fin 32, ∃ t : Fin grid0.N, win0_3.index t = ![q.val, 0])

/-- WHAT POINT t WRITES BACK is block t of `rowsOut` of the operand arrays as the region finds them. -/
theorem written_back (c : Dev nD) (t : Fin cfg0.N) :
    (dats m 0 c).flushed 3 t
      = ((cfg0.win 3).blk t).view.read (Elt Ideal) (rowsOut (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S1024x768) zero_offsets, View.ld_unit_zero (S := S768x768) zero_offsets,
    View.ld_unit_zero (S := S1x768) zero_offsets]
  obtain ⟨e0, e1, e2, e3, e4, e5, e6, e7⟩ := block_indices t
  funext j
  show k0_pay1 (F := Ideal) (iblk m c 0 t) (iblk m c 1 t) (iblk m c 2 t) j
    = rowsOut (V m c main_v0) (V m c main_v1) (V m c main_v2) (((cfg0.win 3).blk t).view.emb j)
  refine (congrArg (k0_pay1 (F := Ideal) (iblk m c 0 t) (iblk m c 1 t) (iblk m c 2 t)) (eq_ix2 j)).trans ?_
  refine (BodyValue.stored_apply (iblk m c 0 t) (iblk m c 1 t) (iblk m c 2 t) (j 0) (j 1)).trans ?_
  unfold rowsOut
  have hj0 : (j 0).val < 1024 := (j 0).isLt
  have hj1 : (j 1).val < 768 := (j 1).isLt
  refine congrArg₂ (· + ·) (Finset.sum_congr rfl fun k _ => congrArg₂ (· * ·) ?_ ?_) ?_
  · -- the token block's row p is row 1024·t + p of the token matrix
    show V m c main_v0 (((cfg0.win 0).blk t).view.emb (ix2 (j 0) k)) = V m c main_v0 _
    refine congrArg (V m c main_v0) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 768 + 1 * k.val = k.val; omega
  · -- the weight block is the whole transposed weight matrix
    show V m c main_v1 (((cfg0.win 1).blk t).view.emb (ix2 k (j 1))) = V m c main_v1 _
    refine congrArg (V m c main_v1) (funext fun a => Fin.ext ?_)
    match a with
    | ⟨0, _⟩ => show win0_1.index t (0 : Fin 2) * 768 + 1 * k.val = k.val; omega
    | ⟨1, _⟩ => show win0_1.index t (1 : Fin 2) * 768 + 1 * (j 1).val = win0_3.index t (1 : Fin 2) * 768 + 1 * (j 1).val; omega
  · -- the bias block is the whole bias row
    show V m c main_v2 (((cfg0.win 2).blk t).view.emb (ix2 (0 : Fin 1) (j 1))) = V m c main_v2 _
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 768 + 1 * (j 1).val = win0_3.index t (1 : Fin 2) * 768 + 1 * (j 1).val; omega

/-- An index of the output array is in point t's block iff each coordinate is in the block's range on its axis. -/
theorem mem_block (t : Fin cfg0.N) (i : S32768x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v3).slice (win0_3.rect t)).set ↔ _
  rw [View.set_slice_whole, Rect.mem_set_unit]
  exact Iff.rfl

/-- Every index of the output array is in some point's block: row r is in block r / 1024. -/
theorem covered (i : S32768x768.Idx) :
    ∃ t : Fin cfg0.N, (cfg0.win 3).flush t = true ∧ i ∈ ((cfg0.win 3).blk t).view.set := by
  have hi0 : (i 0).val < 32768 := (i 0).isLt
  have hi1 : (i 1).val < 768 := (i 1).isLt
  obtain ⟨t, ht⟩ := block_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 768 ≤ (i 1).val ∧ (i 1).val < win0_3.index t (1 : Fin 2) * 768 + 768; omega

/-- THE OUTPUT ARRAY after the region: `rowsOut` of the operand arrays as the region finds them. -/
theorem region_array (c : Dev nD) :
    (dats m 0 c).arrAt 3 cfg0.N = rowsOut (V m c main_v0) (V m c main_v1) (V m c main_v2) :=
  (dats m 0 c).arrAt_eq_of_cover 3 _ (fun t _ => written_back m c t) covered

end Cert.KernelIdeal.RegionValue

end
-- ==== Proof.KernelValue.lean ====
/-
  The kernel's result as one function of its arguments.

  Around the region the program has four host lines: before it, the merge of the two token axes, the transpose of
  the weights and the unit axis in front of the bias, which write the three arrays the region reads; after it, the
  split of the product's row axis back into the two token axes, which writes the result. The region leaves
  `rowsOut` of the three arrays it found (the region's value), so the result is that matrix with its row axis
  split, which by the re-laying law is `linear` of the argument arrays. The arguments themselves are written by
  no line and end as they began.
-/
import proofs.«117701_g83073257439578_cont_9to1c4b_858_5_alg».proof.Proof.Gen.KernelIdeal.Frame
import proofs.«117701_g83073257439578_cont_9to1c4b_858_5_alg».proof.Proof.Spec
import proofs.«117701_g83073257439578_cont_9to1c4b_858_5_alg».proof.Proof.Relayout
import proofs.«117701_g83073257439578_cont_9to1c4b_858_5_alg».proof.Proof.RegionValue
import Idealize.ShloMosaic.Lib.Pipeline.Value
import Idealize.ShloMosaic.Lib.StableHlo.Run
import Idealize.ShloMosaic.PureOps.Ideal

noncomputable section

namespace Cert.KernelIdeal.KernelValue

open Cert.KernelIdeal Cert.KernelIdeal.Gen Cert.DenseLayer Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## What the region finds -/

/-- The token matrix the region reads is the token array with its two leading axes merged. -/
theorem entry_rows (c : Dev nD) :
    (V m c main_v0 : S32768x768.Idx → EReal)
      = shapeCast S32768x768 (m ((c : Thread nD τ).loc main_arg0)) shapeCasts_S4x8192x768_S32768x768 := by
  show StableHlo.after hostOps0 (fun b => m (c, b)) (Proc.devRef .tc main_v0) = _
  after_results
  rfl

/-- The weight matrix the region reads is the transpose of the weight array. -/
theorem entry_weights (c : Dev nD) :
    (V m c main_v1 : S768x768.Idx → EReal)
      = transpose S768x768 [1, 0] (m ((c : Thread nD τ).loc main_arg1)) transposes_S768x768_S768x768_1_0 := by
  show StableHlo.after hostOps0 (fun b => m (c, b)) (Proc.devRef .tc main_v1) = _
  after_results

/-- The bias row the region reads is the bias array with a unit axis in front. -/
theorem entry_bias (c : Dev nD) :
    (V m c main_v2 : S1x768.Idx → EReal)
      = shapeCast S1x768 (m ((c : Thread nD τ).loc main_arg2)) shapeCasts_S768_S1x768 := by
  show StableHlo.after hostOps0 (fun b => m (c, b)) (Proc.devRef .tc main_v2) = _
  after_results
  rfl

/-! ## What the line after the region writes -/

/-- The result is the region's output array with its row axis split into the two token axes. -/
theorem result_array (c : Dev nD) :
    (Pipeline.afterTail₀ cfgs (dats m) 0 (V0 m) [hostOps1] c main_v4 : S4x8192x768.Idx → EReal)
      = shapeCast S4x8192x768 ((dats m 0 c).arrAt 3 cfg0.N) shapeCasts_S32768x768_S4x8192x768 := by
  unfold Pipeline.afterTail₀
  show StableHlo.after hostOps1 _ (Proc.devRef .tc main_v4) = _
  after_results
  have h : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c _ _ 3
  rw [h]
  rfl

/-- THE RESULT: the layer on the argument arrays. -/
theorem result_eq (c : Dev nD) :
    (Pipeline.afterTail₀ cfgs (dats m) 0 (V0 m) [hostOps1] c main_v4 : S4x8192x768.Idx → EReal)
      = linear (m ((c : Thread nD τ).loc main_arg0)) (m ((c : Thread nD τ).loc main_arg1)) (m ((c : Thread nD τ).loc main_arg2)) := by
  rw [result_array, RegionValue.region_array, entry_rows, entry_weights, entry_bias]
  exact relaid_eq_linear _ _ _ _ _ _ _

/-! ## The run -/

/-- Every weakly fair execution of the idealized kernel terminates with the result at the layer of the argument
    arrays and the argument arrays unchanged. -/
theorem run : θ_run defs (onTc (τ := τ) (main (F := Ideal))) ⟨m, fun _ => 0, ρ⟩ fun r => ∀ c : Dev nD,
      r.2.mem ((c.tc : Thread nD τ).loc main_v4)
        = linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.ReferenceValue.lean ====
/-
  The reference's result as the same function of its arguments.

  The reference contracts the tokens' feature axis with the weights' input-feature axis and adds the bias
  broadcast over the tokens. Read at token (p, s) and output feature e: the contraction is the sum over k of
  src[p, s, k] · W[e, k], and the broadcast bias is b[e]. That is `linear` term for term.
-/
import proofs.«117701_g83073257439578_cont_9to1c4b_858_5_alg».proof.Proof.Gen.ReferenceIdeal.Read
import proofs.«117701_g83073257439578_cont_9to1c4b_858_5_alg».proof.Proof.Spec

noncomputable section

namespace Cert.ReferenceIdeal.RefValue

open Cert.ReferenceIdeal Cert.ReferenceIdeal.Gen Cert.DenseLayer Idealize.ShloMosaic Idealize.ShloMosaic.ValueIdx

/-- The reference's last stage is the layer on the argument arrays. -/
theorem stage_eq_linear (x0 : (⟨S4x8192x768, .f32⟩ : BufTy).Contents (Elt Ideal)) (x1 : (⟨S768x768, .f32⟩ : BufTy).Contents (Elt Ideal))
    (x2 : (⟨S768, .f32⟩ : BufTy).Contents (Elt Ideal)) :
    Read.val_main_v3 (F := Ideal) x0 x1 x2 = linear x0 x1 x2 := by
  funext i
  have el : ∀ k : Fin 768, Read.lidx_main_v0 i k = ix3 (i 0) (i 1) k := fun k => funext fun a => by
    match a with
    | ⟨0, _⟩ => rfl
    | ⟨1, _⟩ => rfl
    | ⟨2, _⟩ => rfl
  have er : ∀ k : Fin 768, Read.ridx_main_v0 i k = ix2 (i 2) k := fun k => funext fun a => by
    match a with
    | ⟨0, _⟩ => rfl
    | ⟨1, _⟩ => rfl
  have eb : Read.idx_main_v1 (Read.idx_main_v2 i) = ix1 (i 2) := funext fun a => by
    match a with
    | ⟨0, _⟩ => rfl
  rw [Read.val_main_v3_apply, Read.val_main_v0_apply, Read.val_main_v2_apply, Read.val_main_v1_apply]
  simp only [el, er, eb]
  rfl

end Cert.ReferenceIdeal.RefValue

end
-- ==== Proof.lean ====
/-
  A dense layer over 4 × 8192 tokens of 768 features: out[p, s, e] = (∑ k, src[p, s, k] · W[e, k]) + b[e].

  The kernel merges the two token axes into 32768 rows, transposes the weights, and runs a matrix product tiled
  over 32 blocks of 1024 rows, adding the bias row to every row of each block, then splits the row axis again.
  The reference contracts the feature axis of the tokens with the input-feature axis of the weights and adds the
  bias broadcast over the tokens. Over the extended reals both are the function `linear` of the three argument
  arrays (Proof/Spec.lean): each entry is the same sum of the same 768 products in the same order plus the same
  bias entry, so the two results are equal without any appeal to finiteness of the inputs.

  The kernel's side: what the body stores at an index (Proof/BodyValue.lean), what the 32 blocks leave in the
  output matrix (Proof/RegionValue.lean), the re-laying of the operands and of the product read at an index
  (Proof/Relayout.lean), and the run with the result named (Proof/KernelValue.lean). The reference's side: its
  last stage read at an index is the same function (Proof/ReferenceValue.lean). The three programs terminate
  without fault and leave their arguments unchanged; the idealized kernel is the kernel's own text read over the
  extended reals, nothing rewritten.
-/
import proofs.«117701_g83073257439578_cont_9to1c4b_858_5_alg».proof.Defs
import proofs.«117701_g83073257439578_cont_9to1c4b_858_5_alg».proof.Proof.Gen.Kernel
import proofs.«117701_g83073257439578_cont_9to1c4b_858_5_alg».proof.Proof.Gen.Kernel.Skeleton
import proofs.«117701_g83073257439578_cont_9to1c4b_858_5_alg».proof.Proof.Gen.Kernel.Launch
import proofs.«117701_g83073257439578_cont_9to1c4b_858_5_alg».proof.Proof.Gen.Kernel.Points
import proofs.«117701_g83073257439578_cont_9to1c4b_858_5_alg».proof.Proof.Gen.Kernel.Frame
import proofs.«117701_g83073257439578_cont_9to1c4b_858_5_alg».proof.Proof.Gen.KernelIdeal
import proofs.«117701_g83073257439578_cont_9to1c4b_858_5_alg».proof.Proof.Gen.KernelIdeal.Skeleton
import proofs.«117701_g83073257439578_cont_9to1c4b_858_5_alg».proof.Proof.Gen.KernelIdeal.Launch
import proofs.«117701_g83073257439578_cont_9to1c4b_858_5_alg».proof.Proof.Gen.KernelIdeal.Points
import proofs.«117701_g83073257439578_cont_9to1c4b_858_5_alg».proof.Proof.Gen.KernelIdeal.Frame
import proofs.«117701_g83073257439578_cont_9to1c4b_858_5_alg».proof.Proof.Gen.ReferenceIdeal
import proofs.«117701_g83073257439578_cont_9to1c4b_858_5_alg».proof.Proof.Gen.ReferenceIdeal.Run
import proofs.«117701_g83073257439578_cont_9to1c4b_858_5_alg».proof.Proof.Gen.ReferenceIdeal.Read
import proofs.«117701_g83073257439578_cont_9to1c4b_858_5_alg».proof.Proof.Gen.Pre_finite_inputs
import proofs.«117701_g83073257439578_cont_9to1c4b_858_5_alg».proof.Proof.Spec
import proofs.«117701_g83073257439578_cont_9to1c4b_858_5_alg».proof.Proof.KernelValue
import proofs.«117701_g83073257439578_cont_9to1c4b_858_5_alg».proof.Proof.ReferenceValue
import Idealize.ShloMosaic.Adequacy
import Idealize.ShloMosaic.Init

noncomputable section

namespace Cert.Proof

open Idealize.ShloMosaic Idealize.SL.Sem Cert.DenseLayer

/-- The kernel as printed runs to the end and leaves its three arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories agreeing on the three arguments both programs end with the result at `linear` of those
    arguments: the kernel by its run, the reference by its run and its last stage read at an index. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.stage_eq_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
